-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x1x8192 : Shape := ⟨3, ![4, 1, 8192]⟩
abbrev S1x256x3 : Shape := ⟨3, ![1, 256, 3]⟩
abbrev S1x8192x3 : Shape := ⟨3, ![1, 8192, 3]⟩
abbrev S1x256x1 : Shape := ⟨3, ![1, 256, 1]⟩
abbrev S1x1x8192 : Shape := ⟨3, ![1, 1, 8192]⟩
abbrev S1x8192 : Shape := ⟨2, ![1, 8192]⟩
abbrev S256x3 : Shape := ⟨2, ![256, 3]⟩
abbrev S8192x3 : Shape := ⟨2, ![8192, 3]⟩
abbrev S256 : Shape := ⟨1, ![256]⟩
abbrev S256x1 : Shape := ⟨2, ![256, 1]⟩
abbrev S8192 : Shape := ⟨1, ![8192]⟩
abbrev S8192x1 : Shape := ⟨2, ![8192, 1]⟩
abbrev S256x5 : Shape := ⟨2, ![256, 5]⟩
abbrev S8192x5 : Shape := ⟨2, ![8192, 5]⟩
abbrev S5x8192 : Shape := ⟨2, ![5, 8192]⟩
abbrev S256x8192 : Shape := ⟨2, ![256, 8192]⟩
abbrev S4x8192 : Shape := ⟨2, ![4, 8192]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x8192x3, .f32⟩
  | .local _ .vmem, ⟨3, _⟩ => ⟨S1x256x1, .f32⟩
  | .local _ .vmem, ⟨4, _⟩ => ⟨S1x256x1, .f32⟩
  | .local _ .vmem, ⟨5, _⟩ => ⟨S1x1x8192, .f32⟩
  | .local _ .vmem, ⟨6, _⟩ => ⟨S1x1x8192, .f32⟩
  | .local _ .vmem, ⟨7, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_20 : BitVec 32 := 0#32
  let v37 : BitVec 1 := Scalar.cmpi .ne v36 c0_i32_20
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  reduces_S256x3_S256 : S256x3.Reduces [1] S256
  shapeCasts_S256_S256x1 : S256.ShapeCasts S256x1
  reduces_S8192x3_S8192 : S8192x3.Reduces [1] S8192
  shapeCasts_S8192_S8192x1 : S8192.ShapeCasts S8192x1
  concatenates_S256x3_S256x1_S256x1_S256x5_d1 : Shape.Concatenates [S256x3, S256x1, S256x1] S256x5 1
  concatenates_S8192x3_S8192x1_S8192x1_S8192x5_d1 : Shape.Concatenates [S8192x3, S8192x1, S8192x1] S8192x5 1
  bitsLt_bf16_f32 : FTy.bits .bf16 < FTy.bits .f32
  transposes_S8192x5_p1_0_S5x8192 : S8192x5.Transposes [1, 0] S5x8192
  reduces_S256x8192_S256 : S256x8192.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reduces_S256x8192_S8192 : S256x8192.Reduces [0] S8192
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  shapeCasts_S4x1x8192_S4x8192 : S4x1x8192.ShapeCasts S4x8192
  reducesTo_S4x8192_S_d0_1 : S4x8192.ReducesTo [0, 1] S_
  h_S_ : 0 < S_.numel
  dot_S256x5_S5x8192_S256x8192_1_0_0_1_n_n_wf : DotDims.WF S256x5 S5x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x8192x3.size a
  hwx0_0 : ∀ i : grid0.Coords, EltTy.bits .f32 = 32 ∨ (Rect.block (s := S4x8192x3) S1x256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S4x8192x3.size a
  hwx0_1 : ∀ i : grid0.Coords, EltTy.bits .f32 = 32 ∨ (Rect.block (s := S4x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x8192x1.size a
  hwx0_2 : ∀ i : grid0.Coords, EltTy.bits .f32 = 32 ∨ (Rect.block (s := S4x8192x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S256x5_S5x8192_S256x8192_1_0_0_1_n_n : DotDims S256x5 S5x8192 S256x8192 where
  lhsContracting := [1]
  rhsContracting := [0]
  lhsNonContracting := [0]
  rhsNonContracting := [1]
  lhsBatch := []
  rhsBatch := []
  wf := dot_S256x5_S5x8192_S256x8192_1_0_0_1_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What each run of the kernel's body leaves behind, as values. The body is run in three situations — the first tile
  of a batch (the running column minimum is reset to +∞ first), a middle tile, and the last tile (the running column
  minimum is also copied out). In each, the row-minimum block it stores is one function of the two loaded blocks of
  points, and the running column minimum it leaves is the old one (or +∞ after a reset) combined with this tile's
  column minimum; on the last tile the block copied out is that running minimum.
-/
import proofs.«125541_j65206193488018_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Chamfer.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row-minimum block stored in situation A is the row minimum of the tile of the two loaded blocks. -/
theorem rowmin_A (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x8192 .f32) (harg6 : arg6.IsWhole) (hc0 : cond0_0 i) (hc1 : ¬cond0_1 i)
    (x0 : Vec F S1x256x3 .f32) (x1 : Vec F S1x8192x3 .f32) :
    out0_A_2 c i arg2 harg2 arg3 harg3 arg4 harg4 arg5 harg5 arg6 harg6 hc0 hc1 x0 x1 = k0_pay5 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  rw [View.canon_unit_zero hz3]
  simp only [View.readAt_eq_ld, harg2.read_unread, harg3.read_unread, View.ld_unit_zero (S := S1x256x3) hz3,
    View.ld_unit_zero (S := S1x8192x3) hz3]

/-- The row-minimum block stored in situation B is the row minimum of the tile of the two loaded blocks. -/
theorem rowmin_B (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : ¬cond0_1 i)
    (x0 : Vec F S1x256x3 .f32) (x1 : Vec F S1x8192x3 .f32) (xs0 : Vec F S1x8192 .f32) :
    out0_B_2 c i arg2 harg2 arg3 harg3 arg4 harg4 arg5 harg5 arg6 harg6 hc0 hc1 x0 x1 xs0 = k0_pay5 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  rw [View.canon_unit_zero hz3]
  simp only [View.readAt_eq_ld, harg2.read_unread, harg3.read_unread, View.ld_unit_zero (S := S1x256x3) hz3,
    View.ld_unit_zero (S := S1x8192x3) hz3]

/-- The row-minimum block stored in situation C is the row minimum of the tile of the two loaded blocks. -/
theorem rowmin_C (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : cond0_1 i)
    (x0 : Vec F S1x256x3 .f32) (x1 : Vec F S1x8192x3 .f32) (xs0 : Vec F S1x8192 .f32) :
    out0_C_2 c i arg2 harg2 arg3 harg3 arg4 harg4 arg5 harg5 arg6 harg6 hc0 hc1 x0 x1 xs0 = k0_pay5 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  rw [View.canon_unit_zero hz3]
  simp only [View.readAt_eq_ld, harg2.read_unread, harg3.read_unread, View.ld_unit_zero (S := S1x256x3) hz3,
    View.ld_unit_zero (S := S1x8192x3) hz3]

/-- The running column minimum left in situation B: the incoming one combined with this tile's column minimum. -/
theorem colmin_B (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : ¬cond0_1 i)
    (x0 : Vec F S1x256x3 .f32) (x1 : Vec F S1x8192x3 .f32) (xs0 : Vec F S1x8192 .f32) :
    sout0_B_0 c i arg2 harg2 arg3 harg3 arg4 harg4 arg5 harg5 arg6 harg6 hc0 hc1 x0 x1 xs0 = k0_pay1 (k0_pay6 x0 x1 xs0) := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1x256x3) hz3,
    View.ld_unit_zero (S := S1x8192x3) hz3, View.ld_unit_zero (S := S1x8192) hz2]

/-- The running column minimum left in situation C: the incoming one combined with this tile's column minimum. -/
theorem colmin_C (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : cond0_1 i)
    (x0 : Vec F S1x256x3 .f32) (x1 : Vec F S1x8192x3 .f32) (xs0 : Vec F S1x8192 .f32) :
    sout0_C_0 c i arg2 harg2 arg3 harg3 arg4 harg4 arg5 harg5 arg6 harg6 hc0 hc1 x0 x1 xs0 = k0_pay1 (k0_pay6 x0 x1 xs0) := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1x256x3) hz3,
    View.ld_unit_zero (S := S1x8192x3) hz3, View.ld_unit_zero (S := S1x8192) hz2]

/-- On the first tile of a batch the running column minimum is reset to +∞ and then combined with the tile's column minimum. -/
theorem colmin_A (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x8192 .f32) (harg6 : arg6.IsWhole) (hc0 : cond0_0 i) (hc1 : ¬cond0_1 i)
    (x0 : Vec F S1x256x3 .f32) (x1 : Vec F S1x8192x3 .f32) :
    sout0_A_0 c i arg2 harg2 arg3 harg3 arg4 harg4 arg5 harg5 arg6 harg6 hc0 hc1 x0 x1 = k0_pay1 (k0_pay6 x0 x1 (k0_pay3 (F := F))) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x8192) hz2]
  simp only [View.readAt_eq_ld, harg2.read_unread, harg3.read_unread, View.ld_unit_zero (S := S1x256x3) hz3,
    View.ld_unit_zero (S := S1x8192x3) hz3, View.readCov_unit_zero (S := S1x8192) _ hz2]

/-- On the last tile the block copied out is the running column minimum just left. -/
theorem copied_C (c : Dev nD) (i : grid0.Coords) (arg2 : Memref sig .tc .vmem S1x256x3 .f32) (harg2 : arg2.IsWhole) (arg3 : Memref sig .tc .vmem S1x8192x3 .f32) (harg3 : arg3.IsWhole) (arg4 : Memref sig .tc .vmem S1x256x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : cond0_1 i)
    (x0 : Vec F S1x256x3 .f32) (x1 : Vec F S1x8192x3 .f32) (xs0 : Vec F S1x8192 .f32) :
    out0_C_3 c i arg2 harg2 arg3 harg3 arg4 harg4 arg5 harg5 arg6 harg6 hc0 hc1 x0 x1 xs0 = k0_pay2 (k0_pay1 (k0_pay6 x0 x1 xs0)) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread, View.ld_unit_zero (S := S1x256x3) hz3,
    View.ld_unit_zero (S := S1x8192x3) hz3, View.ld_unit_zero (S := S1x8192) hz2, View.readCov_unit_zero (S := S1x8192) _ hz2]

end Cert.Chamfer.Pieces

end
-- ==== Proof.Blocks.lean ====
/-
  Which points of the two clouds the body sees at a grid point. The grid has 4 × 32 points; point t works on batch
  t / 32 and on tile t % 32 of the first cloud: its first block is the 256 points (t % 32) · 256 … (t % 32) · 256 + 255
  of that batch, its second block all 8192 points of the same batch of the second cloud.
-/
import proofs.«125541_j65206193488018_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.Chamfer.Blocks

open Cert.KernelIdeal Cert.KernelIdeal.Gen

variable {F : FTy → Type} [FloatOps F]
variable (m : (ℓ : Loc nD τ sig) → Buf (Elt F) ℓ)

/-- The batch a grid point works on. -/
def batch (t : Fin cfg0.N) : Fin 4 := ⟨t.val / 32, by have : cfg0.N = 128 := N_0; have := t.isLt; omega⟩

/-- The row of the first cloud that row r of the point's tile is. -/
def row (t : Fin cfg0.N) (r : Fin 256) : Fin 8192 := ⟨t.val % 32 * 256 + r.val, by have := r.isLt; omega⟩

/-- Where the first window's block sits: batch t / 32, tile t % 32, all three coordinates. -/
theorem index0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, win0_0.index t (0 : Fin 3) = t.val / 32 ∧ win0_0.index t (1 : Fin 3) = t.val % 32 ∧ win0_0.index t (2 : Fin 3) = 0)

/-- Where the second window's block sits: batch t / 32, the whole batch. -/
theorem index1 : ∀ t : Fin cfg0.N, win0_1.index t (0 : Fin 3) = t.val / 32 ∧ win0_1.index t (1 : Fin 3) = 0 ∧ win0_1.index t (2 : Fin 3) = 0 :=
  (by decide +kernel : ∀ t : Fin grid0.N, win0_1.index t (0 : Fin 3) = t.val / 32 ∧ win0_1.index t (1 : Fin 3) = 0 ∧ win0_1.index t (2 : Fin 3) = 0)

/-- Row r of the first block at point t is point (t % 32) · 256 + r of batch t / 32 of the first cloud. -/
theorem block0_apply (c : Dev nD) (t : Fin cfg0.N) (r : Fin 256) (k : Fin 3) :
    (iblk m c 0 t : Vec F S1x256x3 .f32) (ix3 0 r k) = m ((c : Thread nD τ).loc main_arg0) (ix3 (batch t) (row t r) k) := by
  obtain ⟨h0, h1, h2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 32; rw [h0]; omega
  | ⟨1, _⟩ => show win0_0.index t 1 * 256 + 1 * r.val = t.val % 32 * 256 + r.val; rw [h1]; omega
  | ⟨2, _⟩ => show win0_0.index t 2 * 3 + 1 * k.val = k.val; rw [h2]; omega

/-- Row q of the second block at point t is point q of batch t / 32 of the second cloud. -/
theorem block1_apply (c : Dev nD) (t : Fin cfg0.N) (q : Fin 8192) (k : Fin 3) :
    (iblk m c 1 t : Vec F S1x8192x3 .f32) (ix3 0 q k) = m ((c : Thread nD τ).loc main_arg1) (ix3 (batch t) q k) := by
  obtain ⟨h0, h1, h2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 32; rw [h0]; omega
  | ⟨1, _⟩ => show win0_1.index t 1 * 8192 + 1 * q.val = q.val; rw [h1]; omega
  | ⟨2, _⟩ => show win0_1.index t 2 * 3 + 1 * k.val = k.val; rw [h2]; omega

end Cert.Chamfer.Blocks

end
-- ==== Proof.Spec.lean ====
/-
  The specification. Two clouds of points in three dimensions, four batches of 8192 points each. For a batch b,
  the squared distance between point n of the first cloud and point m of the second is written
      |x_n|² + |y_m|² − 2 · ⟨x_n, y_m⟩ ,
  each squared norm and the inner product a sum over the three coordinates. The two nearest-neighbour tables are
  its minimum over m (for every n) and over n (for every m), each minimum taken from +∞.
-/
import Idealize.ShloMosaic.PureOps.Ideal
import Idealize.ShloMosaic.Lib.ValueIdx

noncomputable section

namespace Cert.Chamfer

open Idealize.ShloMosaic Idealize.ShloMosaic.ValueIdx

/-- A cloud: 4 batches of 8192 points with 3 coordinates, every coordinate an extended real. -/
abbrev Cloud : Type := (⟨3, ![4, 8192, 3]⟩ : Shape).Idx → EReal

/-- A table with one entry per batch and point. -/
abbrev Table : Type := (⟨2, ![4, 8192]⟩ : Shape).Idx → EReal

/-- The squared norm of point n of batch b: the sum of the squares of its three coordinates, from zero. -/
def sq (x : Cloud) (b : Fin 4) (n : Fin 8192) : EReal :=
  Ideal.ofBits .f32 0x00000000#32 + ∑ k : Fin 3, x (ix3 b n k) * x (ix3 b n k)

/-- The inner product of point n of the first cloud and point m of the second, in batch b. -/
def inner (x y : Cloud) (b : Fin 4) (n m : Fin 8192) : EReal :=
  ∑ k : Fin 3, x (ix3 b n k) * y (ix3 b m k)

/-- The squared distance |x_n|² + |y_m|² − 2⟨x_n, y_m⟩. -/
def dist (x y : Cloud) (b : Fin 4) (n m : Fin 8192) : EReal :=
  (sq x b n + sq y b m) - Ideal.ofBits .f32 0x40000000#32 * inner x y b n m

/-- For every point of the first cloud, the least squared distance to a point of the second. -/
def nearest1 (x y : Cloud) : Table := fun i =>
  (Finset.univ : Finset (Fin 8192)).fold min (Ideal.ofBits .f32 0x7F800000#32) (fun m => dist x y (i 0) (i 1) m)

/-- For every point of the second cloud, the least squared distance to a point of the first. -/
def nearest2 (x y : Cloud) : Table := fun i =>
  (Finset.univ : Finset (Fin 8192)).fold min (Ideal.ofBits .f32 0x7F800000#32) (fun n => dist x y (i 0) n (i 1))

end Cert.Chamfer

end
-- ==== Proof.SpecRows.lean ====
/-
  The squared distance of two points given by their three coordinates, and the fact that the distance between
  point n of one cloud and point m of the other is this function of the two points' coordinates.
-/
import proofs.«125541_j65206193488018_1_alg».proof.Proof.Spec

noncomputable section

namespace Cert.Chamfer

open Idealize.ShloMosaic Idealize.ShloMosaic.ValueIdx

/-- The squared norm of a point: the sum of the squares of its coordinates, from zero. -/
def sqOf (p : Fin 3 → EReal) : EReal :=
  Ideal.ofBits .f32 0x00000000#32 + ∑ k : Fin 3, p k * p k

/-- The squared distance of two points: |p|² + |q|² − 2⟨p, q⟩. -/
def distOf (p q : Fin 3 → EReal) : EReal :=
  (sqOf p + sqOf q) - Ideal.ofBits .f32 0x40000000#32 * ∑ k : Fin 3, p k * q k

/-- The distance between two points of two clouds depends only on the six coordinates. -/
theorem dist_eq_distOf (x y : Cloud) (b : Fin 4) (n m : Fin 8192) :
    dist x y b n m = distOf (fun k => x (ix3 b n k)) (fun k => y (ix3 b m k)) := rfl

end Cert.Chamfer

end
-- ==== Proof.LibMinReduce.lean ====
/-
  A float `vector.multi_reduction <minimumf>` over ONE axis, read at the ideal values: at each reduced index it is the
  fold of `min`, from the accumulator's value, over that axis's coordinates of the source (the reduced index with the
  coordinate inserted, `Shape.Reduces.lift`). This is the `<minimumf>` companion of the library's
  `Ideal.multiReduction_maximumf_single`, for any shapes, axis and float format.
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates (a row's or a column's minimum). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.Payloads.lean ====
/-
  The kernel's pure values read at an index. Per grid point the kernel forms, from a block of 256 points p of the
  first cloud and a block of 8192 points q of the second, the 256 × 8192 tile of squared distances as ONE product of
  two augmented five-column matrices: row r of the left factor is (p₀, p₁, p₂, 1, |p|²), row m of the right factor is
  (−2 q₀, −2 q₁, −2 q₂, |q|², 1), so that their inner product is Σ_k p_k (−2 q_k) + 1 · |q|² + |p|² · 1. Over real
  coordinates this is |p|² + |q|² − 2 ⟨p, q⟩, the specification's squared distance. The tile's row minima and column
  minima are folds of `min` from +∞ over the tile's entries.
-/
import proofs.«125541_j65206193488018_1_alg».proof.Proof.Gen.KernelIdeal.Skeleton
import proofs.«125541_j65206193488018_1_alg».proof.Proof.SpecRows
import proofs.«125541_j65206193488018_1_alg».proof.Proof.LibMinReduce
import Idealize.ShloMosaic.Lib.ValueIdx
import Idealize.ShloMosaic.Lib.Pipeline.Value
import Idealize.ShloMosaic.Lib.ValueLayout
import Idealize.ShloMosaic.PureOps.Ideal.Laws

noncomputable section

namespace Cert.Chamfer.Pay

open Idealize.ShloMosaic Idealize.ShloMosaic.ValueIdx Cert.KernelIdeal Cert.KernelIdeal.Gen

/-! ## Layout operations read at an index -/

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The accumulator's reset and the two pass-through casts -/

/-- The reset value of the running column minimum is +∞ everywhere. -/
theorem reset_apply (i : S1x8192.Idx) : k0_pay3 (F := Ideal) i = Ideal.ofBits .f32 0x7F800000#32 := by
  unfold k0_pay3
  rw [shapeCast_self]
  rfl

/-- A cast between equal shapes changes nothing. -/
theorem pay1_eq (v31 : FVec Ideal S1x8192 .f32) : k0_pay1 (F := Ideal) v31 = v31 := by
  unfold k0_pay1
  exact shapeCast_self _ _

/-- The cast that adds a leading unit axis reads the same entry. -/
theorem pay2_apply (v : Vec Ideal S1x8192 .f32) (mm : Fin 8192) :
    k0_pay2 (F := Ideal) v (ix3 (0 : Fin 1) (0 : Fin 1) mm) = v (ix2 (0 : Fin 1) mm) := by
  unfold k0_pay2
  exact shapeCast_ab_1ab_apply v _ 0 0 mm

/-! ## The row and column minima of the tile -/

/-- The minimum along the second cloud's axis: at row `r`, the fold of `min` from +∞ over the row's entries. -/
theorem rowmin_apply (v3 : Vec Ideal S1x256x3 .f32) (v5 : Vec Ideal S1x8192x3 .f32) (r : Fin 256) :
    k0_pay5 (F := Ideal) v3 v5 (ix3 (0 : Fin 1) r (0 : Fin 1))
      = (Finset.univ : Finset (Fin 8192)).fold min (Ideal.ofBits .f32 0x7F800000#32)
          (fun mm => k0_pay4 (F := Ideal) v3 v5 (ix2 r mm)) := by
  unfold k0_pay5
  refine (shapeCast_ab_1ab_apply _ _ 0 r 0).trans ?_
  refine (shapeCast_a_a1_apply _ _ r 0).trans ?_
  refine (Ideal.multiReduction_minimumf_single _ _ _ _ _ _).trans ?_
  refine congrArg (Finset.fold min _ · Finset.univ) (funext fun mm => congrArg (k0_pay4 (F := Ideal) v3 v5) ?_)
  funext a
  match a with
  | ⟨0, _⟩ => exact Fin.ext rfl
  | ⟨1, _⟩ => exact Fin.ext rfl

/-- The running column minimum: the old value against the fold of `min` from +∞ over the column's entries. -/
theorem colmin_apply (v3 : Vec Ideal S1x256x3 .f32) (v5 : Vec Ideal S1x8192x3 .f32) (v28 : Vec Ideal S1x8192 .f32)
    (mm : Fin 8192) :
    k0_pay6 (F := Ideal) v3 v5 v28 (ix2 (0 : Fin 1) mm)
      = min (v28 (ix2 (0 : Fin 1) mm)) ((Finset.univ : Finset (Fin 256)).fold min (Ideal.ofBits .f32 0x7F800000#32)
          (fun r => k0_pay4 (F := Ideal) v3 v5 (ix2 r mm))) := by
  unfold k0_pay6
  refine (minimumf_apply _ _ _).trans (congrArg (min (v28 (ix2 (0 : Fin 1) mm))) ?_)
  refine (shapeCast_a_1a_apply _ _ 0 mm).trans ?_
  refine (Ideal.multiReduction_minimumf_single _ _ _ _ _ _).trans ?_
  refine congrArg (Finset.fold min _ · Finset.univ) (funext fun r => congrArg (k0_pay4 (F := Ideal) v3 v5) ?_)
  funext a
  match a with
  | ⟨0, _⟩ => exact Fin.ext rfl
  | ⟨1, _⟩ => exact Fin.ext rfl

end Cert.Chamfer.Pay

end
-- ==== Proof.Accumulate.lean ====
/-
  What the outputs hold after each grid point, in terms of the tile of distances the point computes.
  After point t the row-minimum block holds, for each of the tile's 256 rows, the least entry of that row (from +∞).
  The running column minimum is reset at the first tile of a batch and combined with each tile's column minimum, so
  after point t it is, for each column, the greatest lower bound of +∞ and of every entry of that column in the tiles
  of the same batch up to t — stated by its lower bounds, which is how a minimum is used. On the last tile of a batch the
  block copied out is the running column minimum.
-/
import proofs.«125541_j65206193488018_1_alg».proof.Proof.Pieces
import proofs.«125541_j65206193488018_1_alg».proof.Proof.Blocks
import proofs.«125541_j65206193488018_1_alg».proof.Proof.Payloads

set_option maxRecDepth 16384

noncomputable section

open Idealize.ShloMosaic Idealize.ShloMosaic.TcCoe Idealize.SL.Sem Idealize.ShloMosaic.ValueIdx

namespace Cert.Chamfer.Acc

open Cert.KernelIdeal Cert.KernelIdeal.Gen

variable (m : (ℓ : Loc nD τ sig) → Buf (Elt Ideal) ℓ)

/-- +∞, as the word the kernel and the reference both start their minima from. -/
abbrev top : EReal := Ideal.ofBits .f32 0x7F800000#32

/-- Entry (r, q) of the tile of distances point t computes from its two blocks. -/
def entry (c : Dev nD) (t : Fin cfg0.N) (r : Fin 256) (q : Fin 8192) : EReal :=
  k0_pay4 (F := Ideal) (iblk m c 0 t) (iblk m c 1 t) (ix2 r q)

/-- After every point the row-minimum block is the row minimum of the point's tile. -/
theorem rowmin_at (c : Dev nD) (t : Fin cfg0.N) :
    (outsAt0 m c t.val t.isLt).1 = k0_pay5 (F := Ideal) (iblk m c 0 t) (iblk m c 1 t) := by
  by_cases h0 : t.val % 32 = 0
  · have h1 : ¬t.val % 32 = 31 := by omega
    rw [outsAt0_A m c t h0 h1]
    dsimp only
    exact Pieces.rowmin_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 32 = 31
    · rw [outsAt0_C m c t h0 h1]
      dsimp only
      exact Pieces.rowmin_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]
      dsimp only
      exact Pieces.rowmin_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- Row r of the row-minimum block after point t: the least entry of row r of the tile, from +∞. -/
theorem rowmin_entry (c : Dev nD) (t : Fin cfg0.N) (r : Fin 256) :
    (outsAt0 m c t.val t.isLt).1 (ix3 (0 : Fin 1) r (0 : Fin 1))
      = (Finset.univ : Finset (Fin 8192)).fold min top (fun q => entry m c t r q) := by
  rw [rowmin_at m c t]
  exact Pay.rowmin_apply (iblk m c 0 t) (iblk m c 1 t) r

/-- At the first tile of a batch the running column minimum starts again from +∞. -/
theorem colmin_first (c : Dev nD) (t : Fin cfg0.N) (h0 : t.val % 32 = 0) :
    (outsAt0 m c t.val t.isLt).2.2
      = k0_pay1 (F := Ideal) (k0_pay6 (F := Ideal) (iblk m c 0 t) (iblk m c 1 t) (k0_pay3 (F := Ideal))) := by
  have h1 : ¬t.val % 32 = 31 := by omega
  rw [outsAt0_A m c t h0 h1]
  dsimp only
  exact Pieces.colmin_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- At a later tile it continues from what the point before left. -/
theorem colmin_next (c : Dev nD) (t : Fin cfg0.N) (h0 : ¬t.val % 32 = 0) :
    (outsAt0 m c t.val t.isLt).2.2
      = k0_pay1 (F := Ideal) (k0_pay6 (F := Ideal) (iblk m c 0 t) (iblk m c 1 t) (outsAt0 m c (t.val - 1) (Nat.lt_of_le_of_lt (Nat.sub_le _ _) t.isLt)).2.2) := by
  by_cases h1 : t.val % 32 = 31
  · rw [outsAt0_C m c t h0 h1]
    dsimp only
    exact Pieces.colmin_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]
    dsimp only
    exact Pieces.colmin_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- On the last tile of a batch the block copied out is the running column minimum the point leaves. -/
theorem copied_last (c : Dev nD) (t : Fin cfg0.N) (h1 : t.val % 32 = 31) :
    (outsAt0 m c t.val t.isLt).2.1 = k0_pay2 (F := Ideal) (outsAt0 m c t.val t.isLt).2.2 := by
  have h0 : ¬t.val % 32 = 0 := by omega
  rw [outsAt0_C m c t h0 h1]
  dsimp only
  rw [Pieces.copied_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2, Pieces.colmin_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2]

/-- So column q of the block copied out is column q of the running column minimum. -/
theorem copied_entry (c : Dev nD) (t : Fin cfg0.N) (h1 : t.val % 32 = 31) (q : Fin 8192) :
    (outsAt0 m c t.val t.isLt).2.1 (ix3 (0 : Fin 1) (0 : Fin 1) q) = (outsAt0 m c t.val t.isLt).2.2 (ix2 (0 : Fin 1) q) := by
  rw [copied_last m c t h1]
  exact Pay.pay2_apply _ q

/-- The lower bounds of the running column minimum after point n: z is below it exactly when z is below +∞ and below
    every entry of column q in the tiles of the same batch up to n. -/
theorem le_colmin_iff (c : Dev nD) (q : Fin 8192) (z : EReal) : ∀ (n : ℕ) (hn : n < cfg0.N),
    z ≤ (outsAt0 m c n hn).2.2 (ix2 (0 : Fin 1) q) ↔
      z ≤ top ∧ ∀ t' : Fin cfg0.N, t'.val / 32 = n / 32 → t'.val ≤ n → ∀ r : Fin 256, z ≤ entry m c t' r q := by
  intro n
  induction n using Nat.strong_induction_on with
  | _ n ih =>
    intro hn
    have hN : cfg0.N = 128 := N_0
    by_cases h0 : n % 32 = 0
    · have e : (outsAt0 m c n hn).2.2
          = k0_pay1 (F := Ideal) (k0_pay6 (F := Ideal) (iblk m c 0 ⟨n, hn⟩) (iblk m c 1 ⟨n, hn⟩) (k0_pay3 (F := Ideal))) :=
        colmin_first m c ⟨n, hn⟩ h0
      have e2 : (outsAt0 m c n hn).2.2 (ix2 (0 : Fin 1) q)
          = min top ((Finset.univ : Finset (Fin 256)).fold min top (fun r => entry m c ⟨n, hn⟩ r q)) := by
        rw [e, Pay.pay1_eq]
        refine (Pay.colmin_apply (iblk m c 0 ⟨n, hn⟩) (iblk m c 1 ⟨n, hn⟩) (k0_pay3 (F := Ideal)) q).trans ?_
        rw [Pay.reset_apply]
        rfl
      rw [e2, le_min_iff, Finset.le_fold_min]
      constructor
      · rintro ⟨hz, -, hr⟩
        refine ⟨hz, fun t' hb hle r => ?_⟩
        have ht : t' = ⟨n, hn⟩ := Fin.ext (by show t'.val = n; omega)
        subst ht
        exact hr r (Finset.mem_univ _)
      · rintro ⟨hz, h⟩
        exact ⟨hz, hz, fun r _ => h ⟨n, hn⟩ rfl (Nat.le_refl _) r⟩
    · have hlt : n - 1 < cfg0.N := by omega
      have e : (outsAt0 m c n hn).2.2
          = k0_pay1 (F := Ideal) (k0_pay6 (F := Ideal) (iblk m c 0 ⟨n, hn⟩) (iblk m c 1 ⟨n, hn⟩) (outsAt0 m c (n - 1) hlt).2.2) :=
        colmin_next m c ⟨n, hn⟩ h0
      have e2 : (outsAt0 m c n hn).2.2 (ix2 (0 : Fin 1) q)
          = min ((outsAt0 m c (n - 1) hlt).2.2 (ix2 (0 : Fin 1) q))
              ((Finset.univ : Finset (Fin 256)).fold min top (fun r => entry m c ⟨n, hn⟩ r q)) := by
        rw [e, Pay.pay1_eq]
        exact Pay.colmin_apply (iblk m c 0 ⟨n, hn⟩) (iblk m c 1 ⟨n, hn⟩) (outsAt0 m c (n - 1) hlt).2.2 q
      rw [e2, le_min_iff, Finset.le_fold_min, ih (n - 1) (by omega) hlt]
      constructor
      · rintro ⟨⟨hz, hprev⟩, -, hr⟩
        refine ⟨hz, fun t' hb hle r => ?_⟩
        by_cases e3 : t'.val = n
        · have ht : t' = ⟨n, hn⟩ := Fin.ext e3
          subst ht
          exact hr r (Finset.mem_univ _)
        · exact hprev t' (by omega) (by omega) r
      · rintro ⟨hz, h⟩
        exact ⟨⟨hz, fun t' hb hle r => h t' (by omega) (by omega) r⟩, hz, fun r _ => h ⟨n, hn⟩ rfl (Nat.le_refl _) r⟩

end Cert.Chamfer.Acc

end
-- ==== Proof.SpecArrays.lean ====
/-
  The two nearest-neighbour tables in the layouts the kernel writes them in: the first as a column per batch
  ([4, 8192, 1]), the second as a row per batch ([4, 1, 8192]).
-/
import proofs.«125541_j65206193488018_1_alg».proof.Proof.Spec

noncomputable section

namespace Cert.Chamfer

open Idealize.ShloMosaic Idealize.ShloMosaic.ValueIdx

/-- The first table as a column per batch: entry (b, n, 0) is the least distance from point n of the first cloud. -/
def column1 (x y : Cloud) : (⟨3, ![4, 8192, 1]⟩ : Shape).Idx → EReal := fun i => nearest1 x y (ix2 (i 0) (i 1))

/-- The second table as a row per batch: entry (b, 0, m) is the least distance to point m of the second cloud. -/
def row2 (x y : Cloud) : (⟨3, ![4, 1, 8192]⟩ : Shape).Idx → EReal := fun i => nearest2 x y (ix2 (i 0) (i 2))

end Cert.Chamfer

end
-- ==== Proof.PayloadsTile.lean ====
/-
  The tile of squared distances read at an entry. The kernel multiplies two augmented five-column matrices: row r of
  the left factor is (p₀, p₁, p₂, 1, |p|²) for point p = r of the first block, row m of the right factor is
  (−2 q₀, −2 q₁, −2 q₂, |q|², 1) for point q = m of the second block; their inner product is
      Σ_k p_k (−2 q_k) + 1 · |q|² + |p|² · 1 .
  First the entry is read, with no assumption on the coordinates, as that five-term expression. Then, for REAL
  coordinates, the expression is the specification's |p|² + |q|² − 2 ⟨p, q⟩: on the extended reals the distributive
  law fails at the infinities, so this second step is stated for real coordinates only.
-/
import proofs.«125541_j65206193488018_1_alg».proof.Proof.Payloads
import Idealize.ShloMosaic.Lib.IdealHost

noncomputable section

namespace Cert.Chamfer.Pay

open Idealize.ShloMosaic Idealize.ShloMosaic.ValueIdx Cert.KernelIdeal Cert.KernelIdeal.Gen

/-! ## Three columns, a column and a column side by side -/

section Concat
variable {α : Type} {n : ℕ}

/-- The first three columns of the concatenation are the first piece's. -/
theorem concat311_apply_left (A : (⟨2, ![n, 3]⟩ : Shape).Idx → α) (B C : (⟨2, ![n, 1]⟩ : Shape).Idx → α)
    (h : Shape.Concatenates [⟨2, ![n, 3]⟩, ⟨2, ![n, 1]⟩, ⟨2, ![n, 1]⟩] ⟨2, ![n, 5]⟩ 1) (i : Fin n) (k : Fin 3) (k' : Fin 5)
    (hk : k.val = k'.val) :
    concatenate ⟨2, ![n, 5]⟩ 1 [⟨⟨2, ![n, 3]⟩, A⟩, ⟨⟨2, ![n, 1]⟩, B⟩, ⟨⟨2, ![n, 1]⟩, C⟩] h (ix2 i k') = A (ix2 i k) :=
  concatenate_apply_piece 1 [⟨⟨2, ![n, 3]⟩, A⟩, ⟨⟨2, ![n, 1]⟩, B⟩, ⟨⟨2, ![n, 1]⟩, C⟩] h (ix2 i k') 0 (by simp) _ A rfl rfl 0 rfl (ix2 i k)
    (fun b hb => match b with | ⟨0, _⟩ => rfl | ⟨1, _⟩ => absurd rfl hb) (by show 0 + k.val = k'.val; omega)

/-- The fourth column is the second piece. -/
theorem concat311_apply_mid (A : (⟨2, ![n, 3]⟩ : Shape).Idx → α) (B C : (⟨2, ![n, 1]⟩ : Shape).Idx → α)
    (h : Shape.Concatenates [⟨2, ![n, 3]⟩, ⟨2, ![n, 1]⟩, ⟨2, ![n, 1]⟩] ⟨2, ![n, 5]⟩ 1) (i : Fin n) (k' : Fin 5)
    (hk : k'.val = 3) :
    concatenate ⟨2, ![n, 5]⟩ 1 [⟨⟨2, ![n, 3]⟩, A⟩, ⟨⟨2, ![n, 1]⟩, B⟩, ⟨⟨2, ![n, 1]⟩, C⟩] h (ix2 i k') = B (ix2 i (0 : Fin 1)) :=
  concatenate_apply_piece 1 [⟨⟨2, ![n, 3]⟩, A⟩, ⟨⟨2, ![n, 1]⟩, B⟩, ⟨⟨2, ![n, 1]⟩, C⟩] h (ix2 i k') 1 (by simp) _ B rfl rfl 3 rfl (ix2 i (0 : Fin 1))
    (fun b hb => match b with | ⟨0, _⟩ => rfl | ⟨1, _⟩ => absurd rfl hb) (by show 3 + 0 = k'.val; omega)

/-- The fifth column is the third piece. -/
theorem concat311_apply_right (A : (⟨2, ![n, 3]⟩ : Shape).Idx → α) (B C : (⟨2, ![n, 1]⟩ : Shape).Idx → α)
    (h : Shape.Concatenates [⟨2, ![n, 3]⟩, ⟨2, ![n, 1]⟩, ⟨2, ![n, 1]⟩] ⟨2, ![n, 5]⟩ 1) (i : Fin n) (k' : Fin 5)
    (hk : k'.val = 4) :
    concatenate ⟨2, ![n, 5]⟩ 1 [⟨⟨2, ![n, 3]⟩, A⟩, ⟨⟨2, ![n, 1]⟩, B⟩, ⟨⟨2, ![n, 1]⟩, C⟩] h (ix2 i k') = C (ix2 i (0 : Fin 1)) :=
  concatenate_apply_piece 1 [⟨⟨2, ![n, 3]⟩, A⟩, ⟨⟨2, ![n, 1]⟩, B⟩, ⟨⟨2, ![n, 1]⟩, C⟩] h (ix2 i k') 2 (by simp) _ C rfl rfl 4 rfl (ix2 i (0 : Fin 1))
    (fun b hb => match b with | ⟨0, _⟩ => rfl | ⟨1, _⟩ => absurd rfl hb) (by show 4 + 0 = k'.val; omega)

end Concat

/-! ## The sum along the three coordinates -/

/-- The sum of an `[n, 3]` array along its second axis, from the neutral accumulator, at row `i`. -/
theorem rowsum3_apply {n : ℕ} (X : FVec Ideal ⟨2, ![n, 3]⟩ .f32) (h : (⟨2, ![n, 3]⟩ : Shape).Reduces [1] ⟨1, ![n]⟩)
    (hφ : FKind.Formats .f32) (hacc : (0x00000000#32 : BitVec 32) = FKind.add.neutral .f32 hφ) (i : Fin n) :
    multiReduction (F := Ideal) .add [1] ⟨1, ![n]⟩ X 0x00000000#32 h hφ hacc (ix1 i) = ∑ k : Fin 3, X (ix2 i k) :=
  (Ideal.multiReduction_add_single X _ h hφ hacc (ix1 i)).trans
    (Finset.sum_congr rfl fun k _ => congrArg X (funext fun a => match a with
      | ⟨0, _⟩ => Fin.ext rfl
      | ⟨1, _⟩ => Fin.ext rfl))

/-- The column of squared norms of `n` points given as a `[1, n, 3]` block, at point `i`. -/
theorem sqnorm_apply {n : ℕ} (v : FVec Ideal ⟨3, ![1, n, 3]⟩ .f32) (hc : (⟨3, ![1, n, 3]⟩ : Shape).ShapeCasts ⟨2, ![n, 3]⟩)
    (h : (⟨2, ![n, 3]⟩ : Shape).Reduces [1] ⟨1, ![n]⟩) (hφ : FKind.Formats .f32)
    (hacc : (0x00000000#32 : BitVec 32) = FKind.add.neutral .f32 hφ) (hc' : (⟨1, ![n]⟩ : Shape).ShapeCasts ⟨2, ![n, 1]⟩)
    (i : Fin n) (u : Fin 1) :
    shapeCast ⟨2, ![n, 1]⟩ (multiReduction (F := Ideal) .add [1] ⟨1, ![n]⟩
        (mulf (shapeCast ⟨2, ![n, 3]⟩ v hc) (shapeCast ⟨2, ![n, 3]⟩ v hc)) 0x00000000#32 h hφ hacc) hc' (ix2 i u)
      = ∑ k : Fin 3, v (ix3 (0 : Fin 1) i k) * v (ix3 (0 : Fin 1) i k) :=
  (shapeCast_a_a1_apply _ hc' i u).trans ((rowsum3_apply _ h hφ hacc i).trans
    (Finset.sum_congr rfl fun k _ => by
      rw [mulf_apply, shapeCast_1ab_ab_apply v hc i k]))

/-! ## The matrix product read at an entry -/

theorem lhs_0 (i : S256x8192.Idx) (q : dot_S256x5_S5x8192_S256x8192_1_0_0_1_n_n.contr.Idx) : (dot_S256x5_S5x8192_S256x8192_1_0_0_1_n_n.lhsIdx i q 0).val = (i 0).val := by
  unfold DotDims.lhsIdx
  rw [dif_neg (show ¬(0 : Fin S256x5.rank) ∈ dot_S256x5_S5x8192_S256x8192_1_0_0_1_n_n.lhsBatch by decide),
    dif_pos (show (0 : Fin S256x5.rank) ∈ dot_S256x5_S5x8192_S256x8192_1_0_0_1_n_n.lhsNonContracting by decide)]
  rfl
theorem lhs_1 (i : S256x8192.Idx) (q : dot_S256x5_S5x8192_S256x8192_1_0_0_1_n_n.contr.Idx) : (dot_S256x5_S5x8192_S256x8192_1_0_0_1_n_n.lhsIdx i q 1).val = (q ⟨0, by decide⟩).val :=
  dot_S256x5_S5x8192_S256x8192_1_0_0_1_n_n.lhsIdx_val_of_single rfl i q
theorem rhs_0 (i : S256x8192.Idx) (q : dot_S256x5_S5x8192_S256x8192_1_0_0_1_n_n.contr.Idx) : (dot_S256x5_S5x8192_S256x8192_1_0_0_1_n_n.rhsIdx i q 0).val = (q ⟨0, by decide⟩).val :=
  dot_S256x5_S5x8192_S256x8192_1_0_0_1_n_n.rhsIdx_val_of_single rfl i q
theorem rhs_1 (i : S256x8192.Idx) (q : dot_S256x5_S5x8192_S256x8192_1_0_0_1_n_n.contr.Idx) : (dot_S256x5_S5x8192_S256x8192_1_0_0_1_n_n.rhsIdx i q 1).val = (i 1).val := by
  unfold DotDims.rhsIdx
  rw [dif_neg (show ¬(1 : Fin S5x8192.rank) ∈ dot_S256x5_S5x8192_S256x8192_1_0_0_1_n_n.rhsBatch by decide),
    dif_pos (show (1 : Fin S5x8192.rank) ∈ dot_S256x5_S5x8192_S256x8192_1_0_0_1_n_n.rhsNonContracting by decide)]
  rfl

/-- The product of a `256 × 5` and a `5 × 8192` matrix into the zero accumulator, at `(r, m)`: the sum over the five
    columns. -/
theorem matmul_read (A : FVec Ideal S256x5 .bf16) (B : FVec Ideal S5x8192 .bf16) (r : Fin 256) (mm : Fin 8192) :
    matmul dot_S256x5_S5x8192_S256x8192_1_0_0_1_n_n none A B (constant (F := Ideal) S256x8192 .f32 0x00000000#32) (ix2 r mm)
      = ∑ k : Fin 5, A (ix2 r k) * B (ix2 k mm) := by
  simp only [matmul]
  rw [Ideal.matmul_constant_zero_apply, ← Equiv.sum_comp (contrEquiv1 dot_S256x5_S5x8192_S256x8192_1_0_0_1_n_n 5 rfl rfl).symm]
  refine Finset.sum_congr rfl fun k _ => ?_
  have hk := contrEquiv1_symm_val dot_S256x5_S5x8192_S256x8192_1_0_0_1_n_n 5 rfl rfl k
  have el : dot_S256x5_S5x8192_S256x8192_1_0_0_1_n_n.lhsIdx (ix2 r mm) ((contrEquiv1 dot_S256x5_S5x8192_S256x8192_1_0_0_1_n_n 5 rfl rfl).symm k) = ix2 r k := funext fun a => Fin.ext (by
    match a with
    | ⟨0, _⟩ => exact lhs_0 _ _
    | ⟨1, _⟩ => exact (lhs_1 _ _).trans hk)
  have er : dot_S256x5_S5x8192_S256x8192_1_0_0_1_n_n.rhsIdx (ix2 r mm) ((contrEquiv1 dot_S256x5_S5x8192_S256x8192_1_0_0_1_n_n 5 rfl rfl).symm k) = ix2 k mm := funext fun a => Fin.ext (by
    match a with
    | ⟨0, _⟩ => exact (rhs_0 _ _).trans hk
    | ⟨1, _⟩ => exact rhs_1 _ _)
  rw [el, er]

/-! ## The tile's entry -/

/-- The inner product of the augmented rows of two points: Σ_k p_k (−2 q_k) + 1 · |q|² + |p|² · 1, as the sum over the
    five columns associates. -/
def tileExpr (p q : Fin 3 → EReal) : EReal :=
  p 0 * (Ideal.ofBits .f32 0xC0000000#32 * q 0) + p 1 * (Ideal.ofBits .f32 0xC0000000#32 * q 1)
    + p 2 * (Ideal.ofBits .f32 0xC0000000#32 * q 2)
    + Ideal.ofBits .f32 0x3F800000#32 * (∑ k : Fin 3, q k * q k)
    + (∑ k : Fin 3, p k * p k) * Ideal.ofBits .f32 0x3F800000#32

/-- The tile at `(r, m)` is that inner product of point `r` of the first block and point `m` of the second — with no
    assumption on the coordinates. -/
theorem tile_apply (v3 : Vec Ideal S1x256x3 .f32) (v5 : Vec Ideal S1x8192x3 .f32) (r : Fin 256) (mm : Fin 8192) :
    k0_pay4 (F := Ideal) v3 v5 (ix2 r mm)
      = tileExpr (fun k => v3 (ix3 (0 : Fin 1) r k)) (fun k => v5 (ix3 (0 : Fin 1) mm k)) := by
  unfold k0_pay4
  refine (matmul_read _ _ r mm).trans ?_
  rw [Fin.sum_univ_five]
  unfold tileExpr
  refine congrArg₂ (· + ·) (congrArg₂ (· + ·) (congrArg₂ (· + ·) (congrArg₂ (· + ·) ?_ ?_) ?_) ?_) ?_
  · exact congrArg₂ (· * ·) ((truncf_apply (ψ := .bf16) _ bitsLt_bf16_f32 _).trans ((concat311_apply_left _ _ _ _ r 0 0 rfl).trans (shapeCast_1ab_ab_apply v3 _ r 0)))
      ((transpose_ix2_apply _ _ 0 mm).trans ((truncf_apply (ψ := .bf16) _ bitsLt_bf16_f32 _).trans ((concat311_apply_left _ _ _ _ mm 0 0 rfl).trans
        (congrArg (Ideal.ofBits .f32 0xC0000000#32 * ·) (shapeCast_1ab_ab_apply v5 _ mm 0)))))
  · exact congrArg₂ (· * ·) ((truncf_apply (ψ := .bf16) _ bitsLt_bf16_f32 _).trans ((concat311_apply_left _ _ _ _ r 1 1 rfl).trans (shapeCast_1ab_ab_apply v3 _ r 1)))
      ((transpose_ix2_apply _ _ 1 mm).trans ((truncf_apply (ψ := .bf16) _ bitsLt_bf16_f32 _).trans ((concat311_apply_left _ _ _ _ mm 1 1 rfl).trans
        (congrArg (Ideal.ofBits .f32 0xC0000000#32 * ·) (shapeCast_1ab_ab_apply v5 _ mm 1)))))
  · exact congrArg₂ (· * ·) ((truncf_apply (ψ := .bf16) _ bitsLt_bf16_f32 _).trans ((concat311_apply_left _ _ _ _ r 2 2 rfl).trans (shapeCast_1ab_ab_apply v3 _ r 2)))
      ((transpose_ix2_apply _ _ 2 mm).trans ((truncf_apply (ψ := .bf16) _ bitsLt_bf16_f32 _).trans ((concat311_apply_left _ _ _ _ mm 2 2 rfl).trans
        (congrArg (Ideal.ofBits .f32 0xC0000000#32 * ·) (shapeCast_1ab_ab_apply v5 _ mm 2)))))
  · exact congrArg₂ (· * ·) ((truncf_apply (ψ := .bf16) _ bitsLt_bf16_f32 _).trans ((concat311_apply_mid _ _ _ _ r 3 rfl).trans rfl))
      ((transpose_ix2_apply _ _ 3 mm).trans ((truncf_apply (ψ := .bf16) _ bitsLt_bf16_f32 _).trans ((concat311_apply_mid _ _ _ _ mm 3 rfl).trans
        (sqnorm_apply v5 _ _ _ _ _ mm 0))))
  · exact congrArg₂ (· * ·) ((truncf_apply (ψ := .bf16) _ bitsLt_bf16_f32 _).trans ((concat311_apply_right _ _ _ _ r 4 rfl).trans (sqnorm_apply v3 _ _ _ _ _ r 0)))
      ((transpose_ix2_apply _ _ 4 mm).trans ((truncf_apply (ψ := .bf16) _ bitsLt_bf16_f32 _).trans ((concat311_apply_right _ _ _ _ mm 4 rfl).trans rfl)))

/-! ## Over real coordinates the inner product is the squared distance -/

/-- The word `0xC0000000` is the real −2. -/
theorem ofBits_negTwo_f32 : Ideal.ofBits .f32 0xC0000000#32 = ((-2 : ℝ) : EReal) := by
  simp [Ideal.ofBits, Ideal.ieee, -EReal.coe_mul, -EReal.coe_neg]; norm_num

/-- The word `0x40000000` is the real 2. -/
theorem ofBits_two_f32 : Ideal.ofBits .f32 0x40000000#32 = ((2 : ℝ) : EReal) := by
  simp [Ideal.ofBits, Ideal.ieee, -EReal.coe_mul]; norm_num

/-- For real coordinates, Σ_k p_k (−2 q_k) + 1 · |q|² + |p|² · 1 = (0 + |p|²) + (0 + |q|²) − 2 ⟨p, q⟩: every term is the
    image of a real, the images of sums, products and differences of reals are those of the images, and in the reals
    the two sides agree by the ring laws. -/
theorem tileExpr_real (p q : Fin 3 → EReal) (hp : ∀ k, ∃ x : ℝ, p k = (x : EReal)) (hq : ∀ k, ∃ x : ℝ, q k = (x : EReal)) :
    tileExpr p q = distOf p q := by
  choose x hx using hp
  choose y hy using hq
  unfold tileExpr distOf sqOf
  simp only [Fin.sum_univ_three, hx, hy, ofBits_negTwo_f32, ofBits_two_f32, Ideal.ofBits_zero_f32, Ideal.ofBits_one_f32]
  rw [← EReal.coe_one, ← EReal.coe_zero]
  simp only [← EReal.coe_mul, ← EReal.coe_add, ← EReal.coe_sub]
  congr 1
  ring

/-- The tile at `(r, m)`, for blocks of real coordinates, is the specification's squared distance of point `r` of the
    first block and point `m` of the second. -/
theorem tile_real (v3 : Vec Ideal S1x256x3 .f32) (v5 : Vec Ideal S1x8192x3 .f32) (r : Fin 256) (mm : Fin 8192)
    (hv3 : ∀ i, ∃ x : ℝ, v3 i = (x : EReal)) (hv5 : ∀ i, ∃ x : ℝ, v5 i = (x : EReal)) :
    k0_pay4 (F := Ideal) v3 v5 (ix2 r mm)
      = Cert.Chamfer.distOf (fun k => v3 (ix3 (0 : Fin 1) r k)) (fun k => v5 (ix3 (0 : Fin 1) mm k)) :=
  (tile_apply v3 v5 r mm).trans (tileExpr_real _ _ (fun _ => hv3 _) (fun _ => hv5 _))

end Cert.Chamfer.Pay

end
-- ==== Proof.Finals.lean ====
/-
  From blocks to arrays. Every entry of a tile is the squared distance of the two points it pairs (for finite
  inputs), so the row-minimum block a point writes back is the corresponding 256 entries of the first
  nearest-neighbour table, and the running column minimum after the last tile of a batch is that batch's row of the
  second table. The blocks written back tile the two result arrays, so after the run the arrays hold the two tables.
-/
import proofs.«125541_j65206193488018_1_alg».proof.Proof.Accumulate
import proofs.«125541_j65206193488018_1_alg».proof.Proof.SpecArrays
import proofs.«125541_j65206193488018_1_alg».proof.Proof.SpecRows
import proofs.«125541_j65206193488018_1_alg».proof.Proof.PayloadsTile

set_option maxRecDepth 16384

noncomputable section

open Idealize.ShloMosaic Idealize.ShloMosaic.TcCoe Idealize.SL.Sem Idealize.ShloMosaic.ValueIdx
open Idealize.ShloMosaic.Pipeline (Dat)

namespace Cert.Chamfer.Finals

open Cert.KernelIdeal Cert.KernelIdeal.Gen Cert.Chamfer.Blocks Cert.Chamfer.Acc

variable (m : (ℓ : Loc nD τ sig) → Buf (Elt Ideal) ℓ)

/-- The first cloud, as core c finds it. -/
abbrev cloud0 (c : Dev nD) : Cloud := m ((c : Thread nD τ).loc main_arg0)
/-- The second cloud. -/
abbrev cloud1 (c : Dev nD) : Cloud := m ((c : Thread nD τ).loc main_arg1)

/-- Every coordinate of a cloud is a real number. -/
abbrev Real (x : Cloud) : Prop := ∀ i, ∃ r : ℝ, x i = (r : EReal)

variable (c : Dev nD)

/-- For finite inputs, entry (r, q) of point t's tile is the squared distance between point (t % 32) · 256 + r of the
    first cloud and point q of the second, in batch t / 32. -/
theorem entry_eq_dist (hfin0 : Real (cloud0 m c)) (hfin1 : Real (cloud1 m c)) (t : Fin cfg0.N) (r : Fin 256) (q : Fin 8192) :
    entry m c t r q = dist (cloud0 m c) (cloud1 m c) (batch t) (row t r) q := by
  have hv3 : ∀ i, ∃ x : ℝ, (iblk m c 0 t : Vec Ideal S1x256x3 .f32) i = (x : EReal) := fun i => by
    obtain ⟨a, r', k, rfl⟩ : ∃ (a : Fin 1) (r' : Fin 256) (k : Fin 3), i = ix3 a r' k := ⟨i 0, i 1, i 2, eq_ix3 i⟩
    obtain rfl : a = 0 := Subsingleton.elim _ _
    rw [block0_apply m c t r' k]
    exact hfin0 _
  have hv5 : ∀ i, ∃ x : ℝ, (iblk m c 1 t : Vec Ideal S1x8192x3 .f32) i = (x : EReal) := fun i => by
    obtain ⟨a, q', k, rfl⟩ : ∃ (a : Fin 1) (q' : Fin 8192) (k : Fin 3), i = ix3 a q' k := ⟨i 0, i 1, i 2, eq_ix3 i⟩
    obtain rfl : a = 0 := Subsingleton.elim _ _
    rw [block1_apply m c t q' k]
    exact hfin1 _
  unfold entry
  rw [Pay.tile_real (iblk m c 0 t) (iblk m c 1 t) r q hv3 hv5, dist_eq_distOf]
  congr 1
  · funext k
    exact block0_apply m c t r k
  · funext k
    exact block1_apply m c t q k

/-- Where the two output windows' blocks sit: the first at (t / 32, t % 32, 0), the second at (t / 32, 0, 0). -/
theorem index2 : ∀ t : Fin cfg0.N, win0_2.index t (0 : Fin 3) = t.val / 32 ∧ win0_2.index t (1 : Fin 3) = t.val % 32 ∧ win0_2.index t (2 : Fin 3) = 0 :=
  (by decide +kernel : ∀ t : Fin grid0.N, win0_2.index t (0 : Fin 3) = t.val / 32 ∧ win0_2.index t (1 : Fin 3) = t.val % 32 ∧ win0_2.index t (2 : Fin 3) = 0)
theorem index3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- What point t writes back of the first table is block t of the table. -/
theorem flushed2_eq (hfin0 : Real (cloud0 m c)) (hfin1 : Real (cloud1 m c)) (t : Fin cfg0.N) :
    (dats m 0 c).flushed 2 t = ((cfg0.win 2).blk t).view.read (Elt Ideal) (column1 (cloud0 m c) (cloud1 m c)) := by
  show (cfg0.win 2).cut (grid0.coords t) ((dats m 0 c).after 2 t) = _
  rw [after0_2]
  obtain ⟨h0, h1, h2⟩ := index2 t
  funext j
  obtain ⟨a, r, u, rfl⟩ : ∃ (a : Fin 1) (r : Fin 256) (u : Fin 1), j = ix3 a r u := ⟨j 0, j 1, j 2, eq_ix3 j⟩
  obtain rfl : a = 0 := Subsingleton.elim _ _
  obtain rfl : u = 0 := Subsingleton.elim _ _
  show (outsAt0 m c t.val t.isLt).1 (ix3 (0 : Fin 1) r (0 : Fin 1))
    = column1 (cloud0 m c) (cloud1 m c) (((cfg0.win 2).blk t).view.emb (ix3 (0 : Fin 1) r (0 : Fin 1)))
  rw [rowmin_entry m c t r]
  have hemb : ((cfg0.win 2).blk t).view.emb (ix3 (0 : Fin 1) r (0 : Fin 1)) = ix3 (batch t) (row t r) (0 : Fin 1) := by
    funext a
    apply Fin.ext
    match a with
    | ⟨0, _⟩ => show win0_2.index t 0 * 1 + 1 * 0 = t.val / 32; rw [h0]; omega
    | ⟨1, _⟩ => show win0_2.index t 1 * 256 + 1 * r.val = t.val % 32 * 256 + r.val; rw [h1]; omega
    | ⟨2, _⟩ => show win0_2.index t 2 * 1 + 1 * 0 = 0; rw [h2]
  rw [hemb]
  show _ = (Finset.univ : Finset (Fin 8192)).fold min top (fun q => dist (cloud0 m c) (cloud1 m c) (batch t) (row t r) q)
  exact congrArg (fun f => (Finset.univ : Finset (Fin 8192)).fold min top f) (funext fun q => entry_eq_dist m c hfin0 hfin1 t r q)

/-- After the last tile of a batch the running column minimum is that batch's row of the second table: the two have
    the same lower bounds, every point of the first cloud being row r of exactly one tile of the batch. -/
theorem colmin_last (hfin0 : Real (cloud0 m c)) (hfin1 : Real (cloud1 m c)) (t : Fin cfg0.N) (h1 : t.val % 32 = 31) (q : Fin 8192) :
    (outsAt0 m c t.val t.isLt).2.2 (ix2 (0 : Fin 1) q) = nearest2 (cloud0 m c) (cloud1 m c) (ix2 (batch t) q) := by
  have hN : cfg0.N = 128 := N_0
  refine eq_of_forall_le_iff fun z => ?_
  rw [le_colmin_iff m c q z t.val t.isLt]
  show _ ↔ z ≤ (Finset.univ : Finset (Fin 8192)).fold min top (fun n => dist (cloud0 m c) (cloud1 m c) (batch t) n q)
  rw [Finset.le_fold_min]
  constructor
  · rintro ⟨hz, h⟩
    refine ⟨hz, fun n _ => ?_⟩
    have hn : n.val < 8192 := n.isLt
    have ht : t.val < 128 := by have := t.isLt; omega
    have ht' : 32 * (t.val / 32) + n.val / 256 < cfg0.N := by omega
    have hd : (32 * (t.val / 32) + n.val / 256) / 32 = t.val / 32 := by omega
    have hm : (32 * (t.val / 32) + n.val / 256) % 32 * 256 + n.val % 256 = n.val := by omega
    have key := h ⟨32 * (t.val / 32) + n.val / 256, ht'⟩ hd (by show 32 * (t.val / 32) + n.val / 256 ≤ t.val; omega)
      ⟨n.val % 256, Nat.mod_lt _ (by norm_num)⟩
    rw [entry_eq_dist m c hfin0 hfin1] at key
    have hb : batch ⟨32 * (t.val / 32) + n.val / 256, ht'⟩ = batch t := Fin.ext hd
    have hr : row ⟨32 * (t.val / 32) + n.val / 256, ht'⟩ ⟨n.val % 256, Nat.mod_lt _ (by norm_num)⟩ = n := Fin.ext hm
    rw [hb, hr] at key
    exact key
  · rintro ⟨hz, h⟩
    refine ⟨hz, fun t' hb hle r => ?_⟩
    rw [entry_eq_dist m c hfin0 hfin1, show batch t' = batch t from Fin.ext hb]
    exact h (row t' r) (Finset.mem_univ _)

/-- What a point that writes the second table back writes is block t of the table. -/
theorem flushed3_eq (hfin0 : Real (cloud0 m c)) (hfin1 : Real (cloud1 m c)) (t : Fin cfg0.N) (hf : (cfg0.win 3).flush t = true) :
    (dats m 0 c).flushed 3 t = ((cfg0.win 3).blk t).view.read (Elt Ideal) (row2 (cloud0 m c) (cloud1 m c)) := by
  have h1 : t.val % 32 = 31 := (flush0_3 t).mp hf
  show (cfg0.win 3).cut (grid0.coords t) ((dats m 0 c).after 3 t) = _
  rw [after0_3]
  obtain ⟨e0, e1, e2⟩ := index3 t
  funext j
  obtain ⟨a, u, q, rfl⟩ : ∃ (a : Fin 1) (u : Fin 1) (q : Fin 8192), j = ix3 a u q := ⟨j 0, j 1, j 2, eq_ix3 j⟩
  obtain rfl : a = 0 := Subsingleton.elim _ _
  obtain rfl : u = 0 := Subsingleton.elim _ _
  show (outsAt0 m c t.val t.isLt).2.1 (ix3 (0 : Fin 1) (0 : Fin 1) q)
    = row2 (cloud0 m c) (cloud1 m c) (((cfg0.win 3).blk t).view.emb (ix3 (0 : Fin 1) (0 : Fin 1) q))
  rw [copied_entry m c t h1 q, colmin_last m c hfin0 hfin1 t h1 q]
  have hemb : ((cfg0.win 3).blk t).view.emb (ix3 (0 : Fin 1) (0 : Fin 1) q) = ix3 (batch t) (0 : Fin 1) q := by
    funext a
    apply Fin.ext
    match a with
    | ⟨0, _⟩ => show win0_3.index t 0 * 1 + 1 * 0 = t.val / 32; rw [e0]; omega
    | ⟨1, _⟩ => show win0_3.index t 1 * 1 + 1 * 0 = 0; rw [e1]
    | ⟨2, _⟩ => show win0_3.index t 2 * 8192 + 1 * q.val = q.val; rw [e2]; omega
  rw [hemb]
  rfl

/-- An index of the first result array lies in point t's block when each coordinate lies in the block's range. -/
theorem mem_blk2 (t : Fin cfg0.N) (i : S4x8192x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v0_0).slice (win0_2.rect t)).set ↔ _
  rw [View.set_slice_whole, Rect.mem_set_unit]
  exact Iff.rfl

theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Entry (b, n, 0) of the first result array is written back by point 32 b + n / 256. -/
theorem cover2 (i : S4x8192x1.Idx) : ∃ t : Fin cfg0.N, (cfg0.win 2).flush t = true ∧ i ∈ ((cfg0.win 2).blk t).view.set := by
  have hN : cfg0.N = 128 := N_0
  have i0 : (i 0).val < 4 := (i 0).isLt
  have i1 : (i 1).val < 8192 := (i 1).isLt
  have i2 : (i 2).val < 1 := (i 2).isLt
  have ht : 32 * (i 0).val + (i 1).val / 256 < cfg0.N := by omega
  refine ⟨⟨32 * (i 0).val + (i 1).val / 256, ht⟩, flush0_2 _, ?_⟩
  rw [mem_blk2]
  obtain ⟨h0, h1, h2⟩ := index2 ⟨32 * (i 0).val + (i 1).val / 256, ht⟩
  have h0' : win0_2.index ⟨32 * (i 0).val + (i 1).val / 256, ht⟩ (0 : Fin 3) = (32 * (i 0).val + (i 1).val / 256) / 32 := h0
  have h1' : win0_2.index ⟨32 * (i 0).val + (i 1).val / 256, ht⟩ (1 : Fin 3) = (32 * (i 0).val + (i 1).val / 256) % 32 := h1
  intro a
  match a with
  | ⟨0, _⟩ =>
    show win0_2.index ⟨32 * (i 0).val + (i 1).val / 256, ht⟩ 0 * 1 ≤ (i 0).val ∧ (i 0).val < win0_2.index ⟨32 * (i 0).val + (i 1).val / 256, ht⟩ 0 * 1 + 1
    rw [h0']; omega
  | ⟨1, _⟩ =>
    show win0_2.index ⟨32 * (i 0).val + (i 1).val / 256, ht⟩ 1 * 256 ≤ (i 1).val ∧ (i 1).val < win0_2.index ⟨32 * (i 0).val + (i 1).val / 256, ht⟩ 1 * 256 + 256
    rw [h1']; omega
  | ⟨2, _⟩ =>
    show win0_2.index ⟨32 * (i 0).val + (i 1).val / 256, ht⟩ 2 * 1 ≤ (i 2).val ∧ (i 2).val < win0_2.index ⟨32 * (i 0).val + (i 1).val / 256, ht⟩ 2 * 1 + 1
    rw [h2]; omega

/-- Entry (b, 0, q) of the second result array is written back by the last point of batch b, 32 b + 31. -/
theorem cover3 (i : S4x1x8192.Idx) : ∃ t : Fin cfg0.N, (cfg0.win 3).flush t = true ∧ i ∈ ((cfg0.win 3).blk t).view.set := by
  have hN : cfg0.N = 128 := N_0
  have i0 : (i 0).val < 4 := (i 0).isLt
  have i1 : (i 1).val < 1 := (i 1).isLt
  have i2 : (i 2).val < 8192 := (i 2).isLt
  have ht : 32 * (i 0).val + 31 < cfg0.N := by omega
  refine ⟨⟨32 * (i 0).val + 31, ht⟩, (flush0_3 _).mpr (by show (32 * (i 0).val + 31) % 32 = 31; omega), ?_⟩
  rw [mem_blk3]
  obtain ⟨e0, e1, e2⟩ := index3 ⟨32 * (i 0).val + 31, ht⟩
  have e0' : win0_3.index ⟨32 * (i 0).val + 31, ht⟩ (0 : Fin 3) = (32 * (i 0).val + 31) / 32 := e0
  intro a
  match a with
  | ⟨0, _⟩ =>
    show win0_3.index ⟨32 * (i 0).val + 31, ht⟩ 0 * 1 ≤ (i 0).val ∧ (i 0).val < win0_3.index ⟨32 * (i 0).val + 31, ht⟩ 0 * 1 + 1
    rw [e0']; omega
  | ⟨1, _⟩ =>
    show win0_3.index ⟨32 * (i 0).val + 31, ht⟩ 1 * 1 ≤ (i 1).val ∧ (i 1).val < win0_3.index ⟨32 * (i 0).val + 31, ht⟩ 1 * 1 + 1
    rw [e1]; omega
  | ⟨2, _⟩ =>
    show win0_3.index ⟨32 * (i 0).val + 31, ht⟩ 2 * 8192 ≤ (i 2).val ∧ (i 2).val < win0_3.index ⟨32 * (i 0).val + 31, ht⟩ 2 * 8192 + 8192
    rw [e2]; omega

/-- After the run the first result array holds the first table, -/
theorem final2 (hfin0 : Real (cloud0 m c)) (hfin1 : Real (cloud1 m c)) : (dats m 0 c).arrAt 2 cfg0.N = column1 (cloud0 m c) (cloud1 m c) :=
  (dats m 0 c).arrAt_eq_of_cover 2 (column1 (cloud0 m c) (cloud1 m c)) (fun t _ => flushed2_eq m c hfin0 hfin1 t) (fun i => cover2 i)

/-- and the second result array the second table. -/
theorem final3 (hfin0 : Real (cloud0 m c)) (hfin1 : Real (cloud1 m c)) : (dats m 0 c).arrAt 3 cfg0.N = row2 (cloud0 m c) (cloud1 m c) :=
  (dats m 0 c).arrAt_eq_of_cover 3 (row2 (cloud0 m c) (cloud1 m c)) (fun t hf => flushed3_eq m c hfin0 hfin1 t hf) (fun i => cover3 i)

end Cert.Chamfer.Finals

end
-- ==== Proof.RefNearest.lean ====
/-
  The reference's two nearest-neighbour tables at the ideal values.

  The reference forms the table of pairwise squared distances d[b, n, m] = (|x_n|² + |y_m|²) − 2 · ⟨x_n, y_m⟩ and takes
  its minimum from +∞ along the last axis (for every n, over m) and along the middle axis (for every m, over n).
  A minimum along one axis is, at each kept index, the fold of `min` over that axis's coordinates; the pairwise entry at
  (b, n, m) is the specification's `dist`, read through the broadcasts, the two sums of squares and the contraction by
  following each index back to the coordinates (b, n, k) and (b, m, k) of the two clouds.
-/
import proofs.«125541_j65206193488018_1_alg».proof.Proof.Gen.ReferenceIdeal.Read
import proofs.«125541_j65206193488018_1_alg».proof.Proof.Spec
import Idealize.ShloMosaic.PureOps.Reduce
import Idealize.ShloMosaic.PureOps.Ideal.Laws
import Idealize.ShloMosaic.Lib.ValueIdx

noncomputable section

namespace Cert.Chamfer.Ref

open Cert.ReferenceIdeal Cert.ReferenceIdeal.Gen Cert.ReferenceIdeal.Read Idealize.ShloMosaic Idealize.ShloMosaic.ValueIdx

/-- Dropping the last axis of a 4 × 8192 × 8192 table leaves a 4 × 8192 one. -/
theorem dropLast : Shape.Reduces S4x8192x8192 [2] S4x8192 := by decide

/-- Dropping the middle axis of a 4 × 8192 × 8192 table leaves a 4 × 8192 one. -/
theorem dropMid : Shape.Reduces S4x8192x8192 [1] S4x8192 := by decide

/-- The pairwise table's entry at (b, n, m) is the squared distance between point n of the first cloud and point m of
    the second, in batch b. -/
theorem pairwise_at (x0 x1 : Cloud) (b : Fin 4) (n m : Fin 8192) :
    val_main_v12 (F := Ideal) x0 x1 (ix3 b n m) = dist x0 x1 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have el : ∀ k : Fin 3, lidx_main_v4 (ix3 b n m) k = ix3 b n k := fun k =>
    funext fun a => Fin.ext (by match a with | ⟨0, _⟩ => rfl | ⟨1, _⟩ => rfl | ⟨2, _⟩ => rfl)
  have er : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply,
    val_main_v5_apply, val_main_v6_apply, val_main_v1_apply, val_main_v3_apply, val_main_v10_apply, val_main_v4_apply,
    val_main_cst_apply, val_main_cst_0_apply, val_main_cst_1_apply]
  simp only [val_main_v0_apply, val_main_v2_apply, e1, e3, el, er, Ideal.ofBits_def, Ideal.addf_def, Ideal.subf_def,
    Ideal.mulf_def]
  rfl

/-- The index over (b, n) with m inserted on the last axis is (b, n, m). -/
theorem dropLast_lift (b : Fin 4) (n m : Fin 8192) : dropLast.lift (ix2 b n) m = ix3 b n m :=
  funext fun a => Fin.ext (by match a with | ⟨0, _⟩ => rfl | ⟨1, _⟩ => rfl | ⟨2, _⟩ => rfl)

/-- The index over (b, m) with n inserted on the middle axis is (b, n, m). -/
theorem dropMid_lift (b : Fin 4) (m n : Fin 8192) : dropMid.lift (ix2 b m) n = ix3 b n m :=
  funext fun a => Fin.ext (by match a with | ⟨0, _⟩ => rfl | ⟨1, _⟩ => rfl | ⟨2, _⟩ => rfl)

/-- The minimum along the last axis: for every point of the first cloud, the least squared distance to a point of the
    second. -/
theorem ref_nearest1 (x0 x1 : Cloud) : val_main_v13 (F := Ideal) x0 x1 = nearest1 x0 x1 := by
  funext i
  obtain ⟨b, n, rfl⟩ : ∃ (b : Fin 4) (n : Fin 8192), i = ix2 b n := ⟨i 0, i 1, eq_ix2 i⟩
  unfold val_main_v13
  rw [Host.reduce_eq_fold_single FloatOps.minimumf _ _ reducesTo_S4x8192x8192_S4x8192_d2 dropLast h_S_]
  have hf : (val_main_v12 (F := Ideal) x0 x1 ∘ dropLast.lift (ix2 b n)) = fun m : Fin 8192 => dist x0 x1 b n m :=
    funext fun (m : Fin 8192) =>
      (congrArg (val_main_v12 (F := Ideal) x0 x1) (dropLast_lift b n m)).trans (pairwise_at x0 x1 b n m)
  rw [hf, val_main_cst_2_apply]
  rfl

/-- The minimum along the middle axis: for every point of the second cloud, the least squared distance to a point of
    the first. -/
theorem ref_nearest2 (x0 x1 : Cloud) : val_main_v14 (F := Ideal) x0 x1 = nearest2 x0 x1 := by
  funext i
  obtain ⟨b, m, rfl⟩ : ∃ (b : Fin 4) (m : Fin 8192), i = ix2 b m := ⟨i 0, i 1, eq_ix2 i⟩
  unfold val_main_v14
  rw [Host.reduce_eq_fold_single FloatOps.minimumf _ _ reducesTo_S4x8192x8192_S4x8192_d1 dropMid h_S_]
  have hf : (val_main_v12 (F := Ideal) x0 x1 ∘ dropMid.lift (ix2 b m)) = fun n : Fin 8192 => dist x0 x1 b n m :=
    funext fun (n : Fin 8192) =>
      (congrArg (val_main_v12 (F := Ideal) x0 x1) (dropMid_lift b m n)).trans (pairwise_at x0 x1 b n m)
  rw [hf, val_main_cst_3_apply]
  rfl

end Cert.Chamfer.Ref

end
-- ==== Proof.MeanTail.lean ====
/-
  The common tail. Both programs finish the same way: each of the two nearest-neighbour tables is summed over both of
  its axes from zero and divided by 32768 = 4 · 8192, the number of its entries, and the two means are added. The tail
  is stated once, as a function of the two tables; the reference's result is the tail of the specification's tables.
-/
import proofs.«125541_j65206193488018_1_alg».proof.Proof.RefNearest

noncomputable section

namespace Cert.Chamfer

open Idealize.ShloMosaic

/-- The sum of the means of two tables: each summed over both axes from the word 0x00000000 (zero), divided by the
    word 0x47000000 (32768), the two quotients added. The two shape facts are arguments, so that each program's own
    proofs of them can be given. -/
def meanSum (h : (⟨2, ![4, 8192]⟩ : Shape).ReducesTo [0, 1] ⟨0, ![]⟩) (hu : 0 < (⟨0, ![]⟩ : Shape).numel) (X Y : Table) :
    (⟨0, ![]⟩ : Shape).Idx → EReal :=
  addf (F := Ideal) (φ := .f32)
    (Host.divf (F := Ideal)
      (Host.reduceAdd (F := Ideal) (φ := .f32) X (constant (F := Ideal) _ .f32 0x00000000#32) h hu)
      (constant (F := Ideal) _ .f32 0x47000000#32))
    (Host.divf (F := Ideal)
      (Host.reduceAdd (F := Ideal) (φ := .f32) Y (constant (F := Ideal) _ .f32 0x00000000#32) h hu)
      (constant (F := Ideal) _ .f32 0x47000000#32))

/-- The reference's result is the sum of the means of the two nearest-neighbour tables, whichever proofs of the two
    shape facts the tail is given. -/
theorem ref_result_of (h : (⟨2, ![4, 8192]⟩ : Shape).ReducesTo [0, 1] ⟨0, ![]⟩) (hu : 0 < (⟨0, ![]⟩ : Shape).numel)
    (x0 x1 : Cloud) :
    Cert.ReferenceIdeal.Read.val_main_v19 (F := Ideal) x0 x1 = meanSum h hu (nearest1 x0 x1) (nearest2 x0 x1) := by
  rw [← Ref.ref_nearest1, ← Ref.ref_nearest2]
  rfl

/-- The same with the reference's own stated shape facts. -/
theorem ref_result [Cert.ReferenceIdeal.Facts] (x0 x1 : Cloud) :
    Cert.ReferenceIdeal.Read.val_main_v19 (F := Ideal) x0 x1
      = meanSum Cert.ReferenceIdeal.Facts₀.reducesTo_S4x8192_S_d0_1 Cert.ReferenceIdeal.Facts₀.h_S_
          (nearest1 x0 x1) (nearest2 x0 x1) :=
  ref_result_of _ _ x0 x1

end Cert.Chamfer

end
-- ==== Proof.KernelReshape.lean ====
/-
  Two reshapes that drop a unit axis. A 4 × 8192 × 1 array viewed as 4 × 8192 reads, at (b, n), the entry (b, n, 0); a
  4 × 1 × 8192 array viewed as 4 × 8192 reads, at (b, n), the entry (b, 0, n). A reshape keeps the row-major position,
  and the two positions are b · 8192 + n on both sides.
-/
import proofs.«125541_j65206193488018_1_alg».proof.KernelIdeal
import Idealize.ShloMosaic.Lib.Pipeline.Value
import Idealize.ShloMosaic.Lib.ValueIdx
import Idealize.ShloMosaic.Lib.ValueLayout

noncomputable section

namespace Cert.Chamfer.Reshape

open Cert.KernelIdeal Idealize.ShloMosaic Idealize.ShloMosaic.ValueIdx

variable {α : Type}

/-- Dropping the trailing unit axis: whichever proof of the shape fact the cast is given. -/
theorem rows_apply_of (h : S4x8192x1.ShapeCasts S4x8192) (G : S4x8192x1.Idx → α) (b : Fin 4) (n : Fin 8192) :
    shapeCast S4x8192 G h (ix2 b n) = G (ix3 b n (0 : Fin 1)) :=
  shapeCast_apply G h _ _ (by
    rw [Shape.rowMajor_val_three, Shape.rowMajor_val_two]
    show (b.val * 8192 + n.val) * 1 + 0 = b.val * 8192 + n.val
    omega)

/-- Dropping the middle unit axis: whichever proof of the shape fact the cast is given. -/
theorem cols_apply_of (h : S4x1x8192.ShapeCasts S4x8192) (H : S4x1x8192.Idx → α) (b : Fin 4) (n : Fin 8192) :
    shapeCast S4x8192 H h (ix2 b n) = H (ix3 b (0 : Fin 1) n) :=
  shapeCast_apply H h _ _ (by
    rw [Shape.rowMajor_val_three, Shape.rowMajor_val_two]
    show (b.val * 1 + 0) * 8192 + n.val = b.val * 8192 + n.val
    omega)

/-- The first with the kernel's own stated shape fact. -/
theorem rows_apply [Cert.KernelIdeal.Facts] (G : S4x8192x1.Idx → α) (b : Fin 4) (n : Fin 8192) :
    shapeCast S4x8192 G Facts₀.shapeCasts_S4x8192x1_S4x8192 (ix2 b n) = G (ix3 b n (0 : Fin 1)) :=
  rows_apply_of _ G b n

/-- The second with the kernel's own stated shape fact. -/
theorem cols_apply [Cert.KernelIdeal.Facts] (H : S4x1x8192.Idx → α) (b : Fin 4) (n : Fin 8192) :
    shapeCast S4x8192 H Facts₀.shapeCasts_S4x1x8192_S4x8192 (ix2 b n) = H (ix3 b (0 : Fin 1) n) :=
  cols_apply_of _ H b n

end Cert.Chamfer.Reshape

end
-- ==== Proof.KernelTail.lean ====
/-
  The kernel's result from its two output arrays. After the region the program views the column-per-batch array
  [4, 8192, 1] and the row-per-batch array [4, 1, 8192] as two 4 × 8192 tables, sums each over both axes, divides by the
  number of entries and adds the two means. When the two arrays hold the two nearest-neighbour tables in those layouts,
  the two views are the tables themselves, so the result is the sum of their means.
-/
import proofs.«125541_j65206193488018_1_alg».proof.Proof.Gen.KernelIdeal.Frame
import proofs.«125541_j65206193488018_1_alg».proof.Proof.MeanTail
import proofs.«125541_j65206193488018_1_alg».proof.Proof.KernelReshape
import proofs.«125541_j65206193488018_1_alg».proof.Proof.SpecArrays
import Idealize.ShloMosaic.Lib.Pipeline.Value
import Idealize.ShloMosaic.Lib.StableHlo.Run
import Idealize.ShloMosaic.Lib.Tactic

noncomputable section

namespace Cert.Chamfer.Tail

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The column-per-batch layout of the first table, viewed as a 4 × 8192 table, is the table. -/
theorem column1_view (h : S4x8192x1.ShapeCasts S4x8192) (x0 x1 : Cloud) :
    shapeCast S4x8192 (column1 x0 x1) h = nearest1 x0 x1 :=
  funext fun i => by
    obtain ⟨b, n, rfl⟩ : ∃ (b : Fin 4) (n : Fin 8192), i = ix2 b n := ⟨i 0, i 1, eq_ix2 i⟩
    exact Reshape.rows_apply_of h (column1 x0 x1) b n

/-- The row-per-batch layout of the second table, viewed as a 4 × 8192 table, is the table. -/
theorem row2_view (h : S4x1x8192.ShapeCasts S4x8192) (x0 x1 : Cloud) :
    shapeCast S4x8192 (row2 x0 x1) h = nearest2 x0 x1 :=
  funext fun i => by
    obtain ⟨b, n, rfl⟩ : ∃ (b : Fin 4) (n : Fin 8192), i = ix2 b n := ⟨i 0, i 1, eq_ix2 i⟩
    exact Reshape.cols_apply_of h (row2 x0 x1) b n

/-- When the region leaves the two output arrays holding the two nearest-neighbour tables in their layouts, the
    program's result is the sum of the two tables' means. -/
theorem tail_of_finals (c : Dev nD) (x0 x1 : Cloud)
    (h2 : (dats m 0 c).arrAt 2 cfg0.N = Cert.Chamfer.column1 x0 x1) (h3 : (dats m 0 c).arrAt 3 cfg0.N = Cert.Chamfer.row2 x0 x1) :
    Pipeline.afterTail₀ cfgs (dats m) 0 (V0 m) [hostOps1] c main_v7
      = meanSum Gen.reducesTo_S4x8192_S_d0_1 Gen.h_S_ (nearest1 x0 x1) (nearest2 x0 x1) := by
  have h2' : (dats m 0 c).arrAt 2 (cfgs 0).N = column1 x0 x1 := h2
  have h3' : (dats m 0 c).arrAt 3 (cfgs 0).N = row2 x0 x1 := h3
  unfold Pipeline.afterTail₀
  show StableHlo.after hostOps1 _ (Proc.devRef .tc main_v7) = _
  after_results
  rw [Pipeline.withArrays_arr spec0 launch0.win.arr_inj c _ _ 2, Pipeline.withArrays_arr spec0 launch0.win.arr_inj c _ _ 3,
    h2', h3', ← column1_view Gen.shapeCasts_S4x8192x1_S4x8192 x0 x1, ← row2_view Gen.shapeCasts_S4x1x8192_S4x8192 x0 x1]
  rfl

/-- The result is one of the buffers the region does not touch. -/
theorem result_mem : main_v7 ∈ Pipeline.restRefs sig cfg0.spec := by
  refine Pipeline.mem_restRefs_of main_v7 rfl (fun w => ?_)
  revert w
  decide

end Cert.Chamfer.Tail

end
-- ==== Proof.FiniteInputs.lean ====
/-
  Finite inputs. The precondition says of each cloud that every coordinate's absolute value is strictly below +∞, the
  conjunction over all coordinates taken as one reduction by `and` from the bit 1. An extended real whose absolute
  value is strictly below +∞ is neither infinity, so it is a real number: every coordinate of both clouds is real.
-/
import proofs.«125541_j65206193488018_1_alg».proof.Defs
import proofs.«125541_j65206193488018_1_alg».proof.Proof.Gen.Pre_finite_inputs
import Idealize.ShloMosaic.Lib.ReduceAll
import Idealize.ShloMosaic.Lib.ValueIdx

noncomputable section

namespace Cert.Chamfer.Fin

open Idealize.ShloMosaic Idealize.SL.Sem

/-- The scalar shape has one index. -/
instance : Subsingleton Cert.Pre_finite_inputs.S_.Idx := ⟨fun a b => funext fun d => d.elim0⟩

/-- The word 0x7F800000 read as a single-precision pattern is +∞. -/
theorem inf_word : Ideal.ofBits .f32 0x7F800000#32 = (⊤ : EReal) := by
  simp [Ideal.ofBits, Ideal.ieee]

/-- An extended real whose absolute value compares strictly below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | top => exact absurd h (by simp [Ideal.cmp])
  | coe r => exact ⟨r, rfl⟩

/-- Under the precondition every coordinate of both clouds is a real number, on every device. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) ValueIdx.ix0
  dsimp only [Cert.Pre_finite_inputs.fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end Cert.Chamfer.Fin

end
-- ==== Proof.KernelRun.lean ====
/-
  The kernel's run, read. Under the precondition every coordinate of the two clouds is a real number, so after the
  run the two result arrays hold the two nearest-neighbour tables, and the host operations after the kernel — each
  table summed, divided by the number of its entries, the two means added — leave that function of the two tables in
  the result. The arguments end unchanged.
-/
import proofs.«125541_j65206193488018_1_alg».proof.Proof.Finals
import proofs.«125541_j65206193488018_1_alg».proof.Proof.KernelTail
import proofs.«125541_j65206193488018_1_alg».proof.Proof.FiniteInputs

set_option maxRecDepth 16384

noncomputable section

open Idealize.ShloMosaic Idealize.ShloMosaic.TcCoe Idealize.SL.Sem
open Idealize.ShloMosaic.Pipeline (Dat)

namespace Cert.Chamfer.Run

open Cert.KernelIdeal Cert.KernelIdeal.Gen Cert.Chamfer.Finals

/-- The mean of the first table plus the mean of the second, of the two clouds core c starts with. -/
abbrev loss (m : (ℓ : Loc nD τ sig) → Buf (Elt Ideal) ℓ) (c : Dev nD) : Buf (Elt Ideal) ((c.tc : Thread nD τ).loc main_v7) :=
  meanSum Cert.KernelIdeal.Gen.reducesTo_S4x8192_S_d0_1 Cert.KernelIdeal.Gen.h_S_
    (nearest1 (cloud0 m c) (cloud1 m c)) (nearest2 (cloud0 m c) (cloud1 m c))

/-- Every weakly fair execution of the idealized kernel from finite inputs terminates with the result at the sum of
    the two tables' means and the arguments unchanged. -/
theorem kernel_run [Cert.Pre_finite_inputs.Facts] (m : (ℓ : Loc nD τ sig) → Buf (Elt Ideal) ℓ) (ρ : Dev nD → PrngReg)
    (hpre : Cert.Pre_KernelIdeal m) :
    θ_run defs (onTc (τ := τ) (main (F := Ideal))) ⟨m, fun _ => 0, ρ⟩ fun r => ∀ c : Dev nD,
      r.2.mem ((c.tc : Thread nD τ).loc main_v7) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
      obtain ⟨hf0, hf1⟩ := Cert.Chamfer.Fin.real_of_pre m hpre c
      exact ⟨((h c).2 main_v7 Cert.Chamfer.Tail.result_mem).trans
          (Cert.Chamfer.Tail.tail_of_finals m c (cloud0 m c) (cloud1 m c) (final2 m c hf0 hf1) (final3 m c hf0 hf1)),
        ((h c).1 0).trans ((dats m 0 c).arrAt_in 0 rfl _),
        ((h c).1 1).trans ((dats m 0 c).arrAt_in 1 rfl _)⟩)
    (run_main m ρ)

end Cert.Chamfer.Run

end
-- ==== Proof.lean ====
/-
  Two clouds of 4 × 8192 points in three dimensions; the result is the mean over the first cloud of each point's least
  squared distance to the second cloud, plus the same with the clouds exchanged.

  The kernel forms the squared distances a tile at a time, 256 points of the first cloud against all 8192 of the second,
  as one product of augmented coordinates, [p, 1, |p|²] · [−2q, |q|², 1] = |p|² + |q|² − 2⟨p, q⟩; it writes each tile's
  row minima out at once and keeps a running column minimum across the 32 tiles of a batch, started from +∞ and written
  out after the last. The reference forms all the distances as |p|² + |q|² − 2⟨p, q⟩ and takes the two minima of the
  whole array. On real coordinates the two arrangements of a distance are equal (distributivity, which fails at
  infinities: this is where the finiteness of the inputs is used), the minimum over all points is the minimum of the
  tiles' minima, and both programs end with the same sums and quotients of the two tables.

  The three frames are the generated ones (the reference's is its generated run with the result dropped); the ideal
  pass rewrote nothing, so the idealization conjunct is trivial.
-/
import proofs.«125541_j65206193488018_1_alg».proof.Defs
import proofs.«125541_j65206193488018_1_alg».proof.Proof.Gen.Kernel
import proofs.«125541_j65206193488018_1_alg».proof.Proof.Gen.Kernel.Skeleton
import proofs.«125541_j65206193488018_1_alg».proof.Proof.Gen.Kernel.Launch
import proofs.«125541_j65206193488018_1_alg».proof.Proof.Gen.Kernel.Points
import proofs.«125541_j65206193488018_1_alg».proof.Proof.Gen.Kernel.Frame
import proofs.«125541_j65206193488018_1_alg».proof.Proof.Gen.KernelIdeal
import proofs.«125541_j65206193488018_1_alg».proof.Proof.Gen.KernelIdeal.Skeleton
import proofs.«125541_j65206193488018_1_alg».proof.Proof.Gen.KernelIdeal.Launch
import proofs.«125541_j65206193488018_1_alg».proof.Proof.Gen.KernelIdeal.Points
import proofs.«125541_j65206193488018_1_alg».proof.Proof.Gen.KernelIdeal.Frame
import proofs.«125541_j65206193488018_1_alg».proof.Proof.Gen.ReferenceIdeal
import proofs.«125541_j65206193488018_1_alg».proof.Proof.Gen.ReferenceIdeal.Run
import proofs.«125541_j65206193488018_1_alg».proof.Proof.Gen.ReferenceIdeal.Read
import proofs.«125541_j65206193488018_1_alg».proof.Proof.Gen.Pre_finite_inputs
import Idealize.ShloMosaic.Adequacy
import Idealize.ShloMosaic.Init
import proofs.«125541_j65206193488018_1_alg».proof.Proof.KernelRun

noncomputable section

namespace Cert.Proof

open Idealize.ShloMosaic Idealize.SL.Sem

/-- From memories agreeing on the two clouds, both idealized programs end with the sum of the two tables' means: the
    kernel by its run read back, the reference because its two minima are the two tables. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Chamfer.Run.loss m c, Cert.Chamfer.Run.kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans
    (Cert.Chamfer.ref_result_of Cert.KernelIdeal.Gen.reducesTo_S4x8192_S_d0_1 Cert.KernelIdeal.Gen.h_S_ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
